-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S8x2048x2048 : Shape := ⟨3, ![8, 2048, 2048]⟩
abbrev S8x1024x2048 : Shape := ⟨3, ![8, 1024, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn {F : FTy → Type} [FloatOps F] (main_arg0 : FVec F S4x4096x2048 .f32) (main_arg1 : IVec S4x4096 32) (main_arg2 : FVec F S8x2048x2048 .f32) (main_arg3 : FVec F S8x1024x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S8x2048x2048 .f32 := Host.absf main_arg2
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x1024x2048 .f32 := Host.absf main_arg3
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  main_v13
-- ==== Kernel.lean ====
abbrev S4x4096x2048 : Shape := ⟨3, ![4, 4096, 2048]⟩
abbrev S4x4096 : Shape := ⟨2, ![4, 4096]⟩
abbrev S8x2048x2048 : Shape := ⟨3, ![8, 2048, 2048]⟩
abbrev S8x1024x2048 : Shape := ⟨3, ![8, 1024, 2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S1x128x2048 : Shape := ⟨3, ![1, 128, 2048]⟩
abbrev S1x2048x2048 : Shape := ⟨3, ![1, 2048, 2048]⟩
abbrev S1x1024x2048 : Shape := ⟨3, ![1, 1024, 2048]⟩
abbrev S128x2048 : Shape := ⟨2, ![128, 2048]⟩
abbrev S2048x2048 : Shape := ⟨2, ![2048, 2048]⟩
abbrev S128x1024 : Shape := ⟨2, ![128, 1024]⟩
abbrev S1024x2048 : Shape := ⟨2, ![1024, 2048]⟩

abbrev nBuf : Space → Nat
  | .hbm => 57
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S8x2048x2048, .f32⟩
  | .hbm, ⟨3, _⟩ => ⟨S8x1024x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S4x4096, .i32⟩
  | .hbm, ⟨11, _⟩ => ⟨S4x4096, .i32⟩
  | .hbm, ⟨12, _⟩ => ⟨S_, .i32⟩
  | .hbm, ⟨13, _⟩ => ⟨S4x4096, .i32⟩
  | .hbm, ⟨14, _⟩ => ⟨S4x4096, .i1⟩
  | .hbm, ⟨15, _⟩ => ⟨S_, .i32⟩
  | .hbm, ⟨16, _⟩ => ⟨S4x4096, .i32⟩
  | .hbm, ⟨17, _⟩ => ⟨S4x4096, .i1⟩
  | .hbm, ⟨18, _⟩ => ⟨S_, .i32⟩
  | .hbm, ⟨19, _⟩ => ⟨S_, .i1⟩
  | .hbm, ⟨20, _⟩ => ⟨S4x4096, .i1⟩
  | .hbm, ⟨21, _⟩ => ⟨S4x4096, .i1⟩
  | .hbm, ⟨22, _⟩ => ⟨S4x4096, .i1⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S16384, .i32⟩
  | .hbm, ⟨27, _⟩ => ⟨S16384x2048, .f32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x2048, .f32⟩
  | .hbm, ⟨40, _⟩ => ⟨S8x2048x2048, .f32⟩
  | .hbm, ⟨41, _⟩ => ⟨S8x2048x2048, .bf16⟩
  | .hbm, ⟨42, _⟩ => ⟨S8x1024x2048, .bf16⟩
  | .hbm, ⟨43, _⟩ => ⟨S8x2048x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384x2048, .f32⟩
  | .hbm, ⟨56, _⟩ => ⟨S4x4096x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x128x2048, .f32⟩
  | .local _ .vmem, ⟨7, _⟩ => ⟨S1x128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_v0 : Ref sig .tc := ⟨.hbm, 28, rfl⟩
abbrev main_call1_v1_0 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x4096 : S_.BroadcastsInDim S4x4096 (![] : Fin 0 → Fin S4x4096.rank)
  shapeCasts_S4x4096_S16384 : S4x4096.ShapeCasts S16384
  shapeCasts_S4x4096x2048_S16384x2048 : S4x4096x2048.ShapeCasts S16384x2048
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S8x2048x2048 : S16384x2048.ShapeCasts S8x2048x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S128x2048_o0_0_S128x1024 : S128x2048.Slices ![0, 0] S128x1024
  slices_S128x2048_o0_1024_S128x1024 : S128x2048.Slices ![0, 1024] S128x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S128x2048_S1x128x2048 : S128x2048.ShapeCasts S1x128x2048
  bcast_S_S16384x2048 : S_.BroadcastsInDim S16384x2048 (![] : Fin 0 → Fin S16384x2048.rank)
  shapeCasts_S8x2048x2048_S16384x2048 : S8x2048x2048.ShapeCasts S16384x2048
  shapeCasts_S16384x2048_S4x4096x2048 : S16384x2048.ShapeCasts S4x4096x2048
  gather_S16384x2048_S16384x1_S16384x2048_1_0_n_n_0_1_12048_wf : GatherDims.WF S16384x2048 S16384x1 S16384x2048 [1] [0] [] [0] [] 1 ![1, 2048]
  dot_S128x2048_S2048x2048_S128x2048_1_0_0_1_n_n_wf : DotDims.WF S128x2048 S2048x2048 S128x2048 [1] [0] [0] [1] [] []
  dot_S128x1024_S1024x2048_S128x2048_1_0_0_1_n_n_wf : DotDims.WF S128x1024 S1024x2048 S128x2048 [1] [0] [0] [1] [] []
  scatter_S16384x2048_S16384x1_S16384x2048_1_0_0_1_wf : ScatterDims.WF S16384x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x2048x2048.size a
  hwx0_0 : ∀ i : grid0.Coords, EltTy.bits .f32 = 32 ∨ (Rect.block (s := S8x2048x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .bf16 = 32 ∨ (Rect.block (s := S8x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x2048x2048.size a
  hwx0_3 : ∀ i : grid0.Coords, EltTy.bits .f32 = 32 ∨ (Rect.block (s := S8x2048x2048) S1x128x2048.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def scatter_S16384x2048_S16384x1_S16384x2048_1_0_0_1 : ScatterDims S16384x2048 S16384x1 S16384x2048 where
  updateWindowDims := [1]
  insertedWindowDims := [0]
  scatterDimsToOperandDims := [0]
  indexVectorDim := 1
  wf := scatter_S16384x2048_S16384x1_S16384x2048_1_0_0_1_wf

abbrev win0_0 : Pipeline.Window sig grid0 :=
  Pipeline.Window.ofSpec (Memref.whole main_v11) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S8x2048x2048 : Shape := ⟨3, ![8, 2048, 2048]⟩
abbrev S8x1024x2048 : Shape := ⟨3, ![8, 1024, 2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S8x2048x1024 : Shape := ⟨3, ![8, 2048, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S8x2048x2048, .f32⟩
  | .hbm, ⟨3, _⟩ => ⟨S8x1024x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S4x4096, .i32⟩
  | .hbm, ⟨11, _⟩ => ⟨S4x4096, .i32⟩
  | .hbm, ⟨12, _⟩ => ⟨S_, .i32⟩
  | .hbm, ⟨13, _⟩ => ⟨S4x4096, .i32⟩
  | .hbm, ⟨14, _⟩ => ⟨S4x4096, .i1⟩
  | .hbm, ⟨15, _⟩ => ⟨S_, .i32⟩
  | .hbm, ⟨16, _⟩ => ⟨S4x4096, .i32⟩
  | .hbm, ⟨17, _⟩ => ⟨S4x4096, .i1⟩
  | .hbm, ⟨18, _⟩ => ⟨S_, .i32⟩
  | .hbm, ⟨19, _⟩ => ⟨S_, .i1⟩
  | .hbm, ⟨20, _⟩ => ⟨S4x4096, .i1⟩
  | .hbm, ⟨21, _⟩ => ⟨S4x4096, .i1⟩
  | .hbm, ⟨22, _⟩ => ⟨S4x4096, .i1⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S16384, .i32⟩
  | .hbm, ⟨27, _⟩ => ⟨S16384x2048, .f32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x2048, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x2048, .f32⟩
  | .hbm, ⟨67, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_v0 : Ref sig .tc := ⟨.hbm, 28, rfl⟩
abbrev main_call1_v1_0 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst : Ref sig .tc := ⟨.hbm, 55, rfl⟩
abbrev main_v18 : Ref sig .tc := ⟨.hbm, 56, rfl⟩
abbrev main_v19 : Ref sig .tc := ⟨.hbm, 57, rfl⟩
abbrev main_c_2 : Ref sig .tc := ⟨.hbm, 58, rfl⟩
abbrev main_v20 : Ref sig .tc := ⟨.hbm, 59, rfl⟩
abbrev main_v21 : Ref sig .tc := ⟨.hbm, 60, rfl⟩
abbrev main_c_3 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  shapeCasts_S4x4096_S16384 : S4x4096.ShapeCasts S16384
  shapeCasts_S4x4096x2048_S16384x2048 : S4x4096x2048.ShapeCasts S16384x2048
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S8x2048x2048 : S16384x2048.ShapeCasts S8x2048x2048
  slices_S8x2048x2048_S8x2048x1024_0_0_0 : S8x2048x2048.Slices ![0, 0, 0] S8x2048x1024
  slices_S8x2048x2048_S8x2048x1024_0_0_1024 : S8x2048x2048.Slices ![0, 0, 1024] S8x2048x1024
  bcast_S_S8x2048x1024 : S_.BroadcastsInDim S8x2048x1024 (![] : Fin 0 → Fin S8x2048x1024.rank)
  bcast_S_S16384x2048 : S_.BroadcastsInDim S16384x2048 (![] : Fin 0 → Fin S16384x2048.rank)
  shapeCasts_S8x2048x2048_S16384x2048 : S8x2048x2048.ShapeCasts S16384x2048
  shapeCasts_S16384x2048_S4x4096x2048 : S16384x2048.ShapeCasts S4x4096x2048
  gather_S16384x2048_S16384x1_S16384x2048_1_0_n_n_0_1_12048_wf : GatherDims.WF S16384x2048 S16384x1 S16384x2048 [1] [0] [] [0] [] 1 ![1, 2048]
  dot_S8x2048x2048_S8x2048x2048_S8x2048x2048_2_1_1_2_0_0_wf : DotDims.WF S8x2048x2048 S8x2048x2048 S8x2048x2048 [2] [1] [1] [2] [0] [0]
  dot_S8x2048x1024_S8x1024x2048_S8x2048x2048_2_1_1_2_0_0_wf : DotDims.WF S8x2048x1024 S8x1024x2048 S8x2048x2048 [2] [1] [1] [2] [0] [0]
  scatter_S16384x2048_S16384x1_S16384x2048_1_0_0_1_wf : ScatterDims.WF S16384x2048 S16384x1 S16384x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf
def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf
def scatter_S16384x2048_S16384x1_S16384x2048_1_0_0_1 : ScatterDims S16384x2048 S16384x1 S16384x2048 where
  updateWindowDims := [1]
  insertedWindowDims := [0]
  scatterDimsToOperandDims := [0]
  indexVectorDim := 1
  wf := scatter_S16384x2048_S16384x1_S16384x2048_1_0_0_1_wf

class Facts : Prop extends Facts₀ where

variable [Facts]
-- ==== Proof.Spec.lean ====
/-
  The mathematics both programs compute, stated once.

  Tokens are routed to one of 8 experts by their position modulo 8. Both programs sort the 16384 tokens
  stably by expert, gather the token rows in that order into 8 groups of 2048 rows, apply to the rows of group
  `e` the expert's feed-forward network, and scatter the resulting rows back to the tokens' own positions.
  The feed-forward network of a row `x` (2048 entries) with first weight `W1` (2048 × 2048) and second weight
  `W2` (1024 × 2048) is, at output column `h`,
      ∑ i < 1024, ((g i · σ(g i)) · u i) · W2 i h,   g i = ∑ k, x k · W1 k i,   u i = ∑ k, x k · W1 k (1024 + i),
  with σ the logistic function. The routing (`order`, `rows`, `grouped`, `ungroup`) is the same chain of host
  operations in both programs and is never opened: it is carried here as four functions.
-/
import proofs.«177609_j6004364280333_1_alg».proof.Proof.Gen.KernelIdeal
import Idealize.ShloMosaic.PureOps.Ideal
import Idealize.ShloMosaic.Lib.ValueIdx

noncomputable section

open scoped BigOperators

namespace Cert.Moe

open Idealize.ShloMosaic Idealize.ShloMosaic.ValueIdx Cert.KernelIdeal
open Cert.KernelIdeal.Facts₀

/-! ## One row through one expert -/

/-- The gate pre-activation of a row: its product with column `i` of the first weight. -/
def gate (x : Fin 2048 → EReal) (W1 : Fin 2048 → Fin 2048 → EReal) (i : Fin 1024) : EReal :=
  ∑ k : Fin 2048, x k * W1 k ⟨i.val, by omega⟩

/-- The up projection of a row: its product with column `1024 + i` of the first weight. -/
def up (x : Fin 2048 → EReal) (W1 : Fin 2048 → Fin 2048 → EReal) (i : Fin 1024) : EReal :=
  ∑ k : Fin 2048, x k * W1 k ⟨1024 + i.val, by omega⟩

/-- The expert's network on one row, at output column `h`: `silu(gate) · up` through the second weight. -/
def ffnRow (x : Fin 2048 → EReal) (W1 : Fin 2048 → Fin 2048 → EReal) (W2 : Fin 1024 → Fin 2048 → EReal)
    (h : Fin 2048) : EReal :=
  ∑ i : Fin 1024, ((gate x W1 i * Ideal.logistic (gate x W1 i)) * up x W1 i) * W2 i h

/-- All groups: row `b` of group `e` through expert `e`'s two weights. -/
def ffn (xg : FVec Ideal S8x2048x2048 .f32) (w1 : FVec Ideal S8x2048x2048 .f32) (w2 : FVec Ideal S8x1024x2048 .f32) :
    FVec Ideal S8x2048x2048 .f32 := fun j =>
  ffnRow (fun k => xg (ix3 (j 0) (j 1) k)) (fun k n => w1 (ix3 (j 0) k n)) (fun i n => w2 (ix3 (j 0) i n)) (j 2)

/-! ## The routing, as both programs spell it -/

/-- Each token's expert: its position modulo 8 as jnp's floored remainder (the truncated remainder, plus the
    divisor where it is non-zero and of the other sign; a zero divisor replaced by one), flattened. -/
def eids (p : IVec S4x4096 32) : IVec S16384 32 :=
  let d0 : IVec S_ 32 := id (constantI S_ 32 8#32)
  let d : IVec S_ 32 := select (cmpi .eq d0 (constantI S_ 32 0#32)) (constantI S_ 32 1#32) d0
  let r : IVec S4x4096 32 := Host.remsi p (broadcastInDim S4x4096 ![] bcast_S_S4x4096 d)
  let nz : IVec S4x4096 1 := cmpi .ne r (broadcastInDim S4x4096 ![] bcast_S_S4x4096 (constantI S_ 32 0#32))
  let neg : IVec S4x4096 1 := cmpi .slt r (broadcastInDim S4x4096 ![] bcast_S_S4x4096 (constantI S_ 32 0#32))
  let dneg : IVec S4x4096 1 := broadcastInDim S4x4096 ![] bcast_S_S4x4096 (cmpi .slt d (constantI S_ 32 0#32))
  let fix : IVec S4x4096 1 := andi (cmpi .ne neg dneg) nz
  shapeCast S16384 (select fix (addi r (broadcastInDim S4x4096 ![] bcast_S_S4x4096 d)) r) shapeCasts_S4x4096_S16384

/-- The tokens' positions sorted stably by expert. -/
def order (p : IVec S4x4096 32) : IVec S16384 32 :=
  (Host.sort2 S16384 0 comparator_i32_i32_d0 (eids p) (iotaInDim S16384 32 0)).2

/-- The sorted positions as a column of row indices (a negative index counted from the end). -/
def rows (o : IVec S16384 32) : IVec S16384x1 32 :=
  broadcastInDim S16384x1 ![0] bcast_S16384_S16384x1_0
    (select (cmpi .slt o (broadcastInDim S16384 ![] bcast_S_S16384 (constantI S_ 32 0#32)))
      (addi o (broadcastInDim S16384 ![] bcast_S_S16384 (constantI S_ 32 16384#32))) o)

/-- The token rows gathered in sorted order, 2048 rows per expert. -/
def grouped (x : FVec Ideal S4x4096x2048 .f32) (o : IVec S16384 32) : FVec Ideal S8x2048x2048 .f32 :=
  shapeCast S8x2048x2048
    (Host.gather gather_S16384x2048_S16384x1_S16384x2048_1_0_n_n_0_1_12048
      (shapeCast S16384x2048 x shapeCasts_S4x4096x2048_S16384x2048) (rows o))
    shapeCasts_S16384x2048_S8x2048x2048

/-- The groups' rows written back at the tokens' own positions over a zero array. -/
def ungroup (o : IVec S16384 32) (y : FVec Ideal S8x2048x2048 .f32) : FVec Ideal S4x4096x2048 .f32 :=
  shapeCast S4x4096x2048
    (Host.scatter scatter_S16384x2048_S16384x1_S16384x2048_1_0_0_1 (fun _ b => b)
      (broadcastInDim S16384x2048 ![] bcast_S_S16384x2048 (constant (F := Ideal) S_ .f32 0x00000000#32))
      (rows o) (shapeCast S16384x2048 y shapeCasts_S8x2048x2048_S16384x2048))
    shapeCasts_S16384x2048_S4x4096x2048

/-- The whole computation: route, apply the experts, route back. -/
def moe (x : FVec Ideal S4x4096x2048 .f32) (p : IVec S4x4096 32) (w1 : FVec Ideal S8x2048x2048 .f32)
    (w2 : FVec Ideal S8x1024x2048 .f32) : FVec Ideal S4x4096x2048 .f32 :=
  ungroup (order p) (ffn (grouped x (order p)) w1 w2)

end Cert.Moe

end
-- ==== Proof.KernelBlock.lean ====
/-
  One block of the kernel, read at an element.

  At a grid point the kernel body holds 128 token rows `X` (128 × 2048), the expert's first weight `W1`
  (2048 × 2048) and second weight `W2` (1024 × 2048), each behind a leading unit axis. It forms `X · W1`,
  splits the 2048 columns into the gate half and the up half, multiplies `gate · σ(gate) · up`, and multiplies the
  result by `W2`. At the ideal values the changes of float format are the identity and a matrix product into a zero
  accumulator is the plain sum of products, so the stored element at row `r`, column `h` is `ffnRow` of row `r`.
-/
import proofs.«177609_j6004364280333_1_alg».proof.Proof.Spec
import proofs.«177609_j6004364280333_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Moe

open Idealize.ShloMosaic Idealize.ShloMosaic.ValueIdx Cert.KernelIdeal
open Cert.KernelIdeal.Facts₀

/-- The first product's dimension numbers: rows × contraction times contraction × columns. -/
abbrev DA : DotDims S128x2048 S2048x2048 S128x2048 := dot_S128x2048_S2048x2048_S128x2048_1_0_0_1_n_n
/-- The second product's dimension numbers. -/
abbrev DB : DotDims S128x1024 S1024x2048 S128x2048 := dot_S128x1024_S1024x2048_S128x2048_1_0_0_1_n_n

/-- The first matrix product into zero, at `(r, n)`: the sum over the 2048 contraction positions. -/
theorem matmulA_apply {φ₁ φ₂ : FTy} (A : FVec Ideal S128x2048 φ₁) (B : FVec Ideal S2048x2048 φ₂) (r : Fin 128) (n : Fin 2048) :
    matmul DA none A B (constant (F := Ideal) S128x2048 .f32 0x00000000#32) (ix2 r n)
      = ∑ k : Fin 2048, A (ix2 r k) * B (ix2 k n) := by
  refine (Ideal.matmul_constant_zero_apply DA none A B (ix2 r n)).trans ?_
  rw [← Equiv.sum_comp (contrEquiv1 DA 2048 rfl rfl).symm]
  refine Finset.sum_congr rfl fun k _ => ?_
  have hl : DA.lhsIdx (ix2 r n) ((contrEquiv1 DA 2048 rfl rfl).symm k) = ix2 r k := by
    funext a; apply Fin.ext
    match a with
    | ⟨0, _⟩ => rfl
    | ⟨1, _⟩ => exact (DotDims.lhsIdx_val_of_single DA rfl _ _).trans (contrEquiv1_symm_val DA 2048 rfl rfl k)
  have hr : DA.rhsIdx (ix2 r n) ((contrEquiv1 DA 2048 rfl rfl).symm k) = ix2 k n := by
    funext a; apply Fin.ext
    match a with
    | ⟨0, _⟩ => exact (DotDims.rhsIdx_val_of_single DA rfl _ _).trans (contrEquiv1_symm_val DA 2048 rfl rfl k)
    | ⟨1, _⟩ => rfl
  rw [hl, hr]

/-- The second matrix product into zero, at `(r, h)`: the sum over the 1024 contraction positions. -/
theorem matmulB_apply {φ₁ φ₂ : FTy} (A : FVec Ideal S128x1024 φ₁) (B : FVec Ideal S1024x2048 φ₂) (r : Fin 128) (h : Fin 2048) :
    matmul DB none A B (constant (F := Ideal) S128x2048 .f32 0x00000000#32) (ix2 r h)
      = ∑ i : Fin 1024, A (ix2 r i) * B (ix2 i h) := by
  refine (Ideal.matmul_constant_zero_apply DB none A B (ix2 r h)).trans ?_
  rw [← Equiv.sum_comp (contrEquiv1 DB 1024 rfl rfl).symm]
  refine Finset.sum_congr rfl fun k _ => ?_
  have hl : DB.lhsIdx (ix2 r h) ((contrEquiv1 DB 1024 rfl rfl).symm k) = ix2 r k := by
    funext a; apply Fin.ext
    match a with
    | ⟨0, _⟩ => rfl
    | ⟨1, _⟩ => exact (DotDims.lhsIdx_val_of_single DB rfl _ _).trans (contrEquiv1_symm_val DB 1024 rfl rfl k)
  have hr : DB.rhsIdx (ix2 r h) ((contrEquiv1 DB 1024 rfl rfl).symm k) = ix2 k h := by
    funext a; apply Fin.ext
    match a with
    | ⟨0, _⟩ => exact (DotDims.rhsIdx_val_of_single DB rfl _ _).trans (contrEquiv1_symm_val DB 1024 rfl rfl k)
    | ⟨1, _⟩ => rfl
  rw [hl, hr]

/-- The activation at `(r, i)`: of a product `P` (128 × 2048), its gate half times the logistic of it, times its up
    half; the rounding to the narrower format is the identity at the ideal values. -/
theorem act_apply (P : FVec Ideal S128x2048 .f32) (r : Fin 128) (i : Fin 1024) :
    (truncf .bf16 (mulf (mulf (extractStridedSlice S128x1024 ![0, 0] P slices_S128x2048_o0_0_S128x1024)
        (logistic (extractStridedSlice S128x1024 ![0, 0] P slices_S128x2048_o0_0_S128x1024)))
        (extractStridedSlice S128x1024 ![0, 1024] P slices_S128x2048_o0_1024_S128x1024)) bitsLt_bf16_f32 : FVec Ideal S128x1024 .bf16) (ix2 r i)
      = (P (ix2 r ⟨i.val, by omega⟩) * Ideal.logistic (P (ix2 r ⟨i.val, by omega⟩))) * P (ix2 r ⟨1024 + i.val, by omega⟩) := by
  have hg := slice2_axis1_apply 0 P slices_S128x2048_o0_0_S128x1024 r i ⟨i.val, by omega⟩ (Nat.zero_add _).symm
  have hu := slice2_axis1_apply 1024 P slices_S128x2048_o0_1024_S128x1024 r i ⟨1024 + i.val, by omega⟩ rfl
  show (extractStridedSlice S128x1024 ![0, 0] P slices_S128x2048_o0_0_S128x1024 (ix2 r i)
      * Ideal.logistic (extractStridedSlice S128x1024 ![0, 0] P slices_S128x2048_o0_0_S128x1024 (ix2 r i)))
      * extractStridedSlice S128x1024 ![0, 1024] P slices_S128x2048_o0_1024_S128x1024 (ix2 r i) = _
  rw [hg, hu]

/-- The first product of the block, at `(r, n)`, over the loaded blocks behind their unit axes. -/
theorem prodA_apply (x0 : Vec Ideal S1x128x2048 .f32) (x1 : Vec Ideal S1x2048x2048 .bf16) (r : Fin 128) (n : Fin 2048) :
    matmul DA none (truncf .bf16 (shapeCast S128x2048 x0 shapeCasts_S1x128x2048_S128x2048 : FVec Ideal S128x2048 .f32) bitsLt_bf16_f32 : FVec Ideal S128x2048 .bf16)
        (shapeCast S2048x2048 x1 shapeCasts_S1x2048x2048_S2048x2048 : FVec Ideal S2048x2048 .bf16) (constant (F := Ideal) S128x2048 .f32 0x00000000#32) (ix2 r n)
      = ∑ k : Fin 2048, x0 (ix3 (0 : Fin 1) r k) * x1 (ix3 (0 : Fin 1) k n) := by
  refine (matmulA_apply _ _ r n).trans ?_
  refine Finset.sum_congr rfl fun k _ => ?_
  have e0 : (truncf .bf16 (shapeCast S128x2048 x0 shapeCasts_S1x128x2048_S128x2048 : FVec Ideal S128x2048 .f32) bitsLt_bf16_f32 : FVec Ideal S128x2048 .bf16) (ix2 r k)
      = x0 (ix3 (0 : Fin 1) r k) := shapeCast_1ab_ab_apply x0 shapeCasts_S1x128x2048_S128x2048 r k
  have e1 : (shapeCast S2048x2048 x1 shapeCasts_S1x2048x2048_S2048x2048 : FVec Ideal S2048x2048 .bf16) (ix2 k n) = x1 (ix3 (0 : Fin 1) k n) :=
    shapeCast_1ab_ab_apply x1 shapeCasts_S1x2048x2048_S2048x2048 k n
  rw [e0, e1]

/-- THE BLOCK AT AN ELEMENT: what the body stores at row `r`, column `h` is the expert's network on row `r` of the
    token block, with the two weight blocks. -/
theorem pay_apply (x0 : Vec Ideal S1x128x2048 .f32) (x1 : Vec Ideal S1x2048x2048 .bf16) (x2 : Vec Ideal S1x1024x2048 .bf16)
    (u : Fin 1) (r : Fin 128) (h : Fin 2048) :
    Gen.k0_pay1 (F := Ideal) x0 x1 x2 (ix3 u r h)
      = ffnRow (fun k => x0 (ix3 (0 : Fin 1) r k)) (fun k n => x1 (ix3 (0 : Fin 1) k n)) (fun i n => x2 (ix3 (0 : Fin 1) i n)) h := by
  unfold Gen.k0_pay1
  refine (shapeCast_ab_1ab_apply _ shapeCasts_S128x2048_S1x128x2048 u r h).trans ?_
  refine (matmulB_apply _ _ r h).trans ?_
  unfold ffnRow
  refine Finset.sum_congr rfl fun i _ => ?_
  have hW2 : (shapeCast S1024x2048 x2 shapeCasts_S1x1024x2048_S1024x2048 : FVec Ideal S1024x2048 .bf16) (ix2 i h) = x2 (ix3 (0 : Fin 1) i h) :=
    shapeCast_1ab_ab_apply x2 shapeCasts_S1x1024x2048_S1024x2048 i h
  rw [hW2]
  refine congrArg (· * x2 (ix3 (0 : Fin 1) i h)) ?_
  refine (act_apply _ r i).trans ?_
  rw [prodA_apply x0 x1 r ⟨i.val, by omega⟩, prodA_apply x0 x1 r ⟨1024 + i.val, by omega⟩]
  rfl

end Cert.Moe

end
-- ==== Proof.KernelValue.lean ====
/-
  The array the region leaves, as one function of the arrays it finds.

  The grid has 8 × 16 points: point `(e, b)` stages rows `128·b … 128·b + 127` of group `e` of the token array, the
  whole of expert `e`'s two weights, and writes back rows `128·b … 128·b + 127` of group `e` of the output. What it
  writes back is, element by element, the expert's network on the corresponding token row (the block lemma), that is,
  the same block of `ffn` of the three arrays. The 128 output blocks tile the output array, so after the region the
  array is `ffn` of the token groups and the two weights as the region found them.
-/
import proofs.«177609_j6004364280333_1_alg».proof.Proof.KernelBlock
import proofs.«177609_j6004364280333_1_alg».proof.Proof.Gen.KernelIdeal.Frame
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Moe

variable (m : (ℓ : Loc nD τ sig) → Buf (Elt Ideal) ℓ)

theorem hz3 : (![0, 0, 0] : Fin 3 → Nat) = fun _ => 0 := funext fun a => by fin_cases a <;> rfl

/-- The printed index maps, decided over the 128 points: the token window moves with the output window, the two
    weight windows follow its group coordinate and stay at block 0 on their other axes; the output's block
    coordinates stay within 8 groups and 16 row blocks. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 7 ∧ win0_3.index t (1 : Fin 3) ≤ 15 :=
  (by decide +kernel : ∀ t : Fin grid0.N, _)

/-- Every (group, row block) pair is some point's output block. -/
theorem idx_onto : ∀ (q0 : Fin 8) (q1 : Fin 16), ∃ t : Fin cfg0.N, win0_3.index t = ![q0.val, q1.val, 0] :=
  (by decide +kernel : ∀ (q0 : Fin 8) (q1 : Fin 16), ∃ t : Fin grid0.N, win0_3.index t = ![q0.val, q1.val, 0])

/-- ONE POINT, over variables: if the three loaded blocks are the rows `128·b …` of group `e` of `xg` and the
    whole of expert `e`'s weights, the stored block at `y` is `ffn xg w1 w2` at the array index `y` sits at. -/
theorem block_eq (xg : FVec Ideal S8x2048x2048 .f32) (w1 : FVec Ideal S8x2048x2048 .f32) (w2 : FVec Ideal S8x1024x2048 .f32)
    (x0 : Vec Ideal S1x128x2048 .f32) (x1 : Vec Ideal S1x2048x2048 .bf16) (x2 : Vec Ideal S1x1024x2048 .bf16)
    (e b : Nat) (he : e < 8) (hb : b < 16)
    (h0 : ∀ (r : Fin 128) (k : Fin 2048), x0 (ix3 (0 : Fin 1) r k) = xg (ix3 (⟨e, he⟩ : Fin 8) (⟨b * 128 + r.val, by omega⟩ : Fin 2048) k))
    (h1 : ∀ (k n : Fin 2048), x1 (ix3 (0 : Fin 1) k n) = w1 (ix3 (⟨e, he⟩ : Fin 8) k n))
    (h2 : ∀ (i : Fin 1024) (n : Fin 2048), x2 (ix3 (0 : Fin 1) i n) = w2 (ix3 (⟨e, he⟩ : Fin 8) i n))
    (y : S1x128x2048.Idx) (i : S8x2048x2048.Idx)
    (hi0 : (i 0).val = e) (hi1 : (i 1).val = b * 128 + (y 1).val) (hi2 : (i 2).val = (y 2).val) :
    k0_pay1 (F := Ideal) x0 x1 x2 y = ffn xg w1 w2 i := by
  obtain ⟨u, r, h, rfl⟩ : ∃ (u : Fin 1) (r : Fin 128) (h : Fin 2048), y = ix3 u r h := ⟨y 0, y 1, y 2, eq_ix3 y⟩
  obtain ⟨e', b', h', rfl⟩ : ∃ (e' : Fin 8) (b' : Fin 2048) (h' : Fin 2048), i = ix3 e' b' h' := ⟨i 0, i 1, i 2, eq_ix3 i⟩
  obtain rfl : e' = ⟨e, he⟩ := Fin.ext hi0
  have hlt : b * 128 + r.val < 2048 := by have := r.isLt; omega
  obtain rfl : b' = ⟨b * 128 + r.val, hlt⟩ := Fin.ext hi1
  obtain rfl : h' = h := Fin.ext hi2
  refine (pay_apply x0 x1 x2 u r h').trans ?_
  show _ = ffnRow _ _ _ h'
  congr 1
  · funext k; exact h0 r k
  · funext k n; exact h1 k n
  · funext i n; exact h2 i n

/-- WHAT POINT `t` WRITES BACK is block `t` of `ffn` of the token groups and the weights as the region finds them. -/
theorem flushed_eq (c : Dev nD) (t : Fin cfg0.N) :
    (dats m 0 c).flushed 3 t = ((cfg0.win 3).blk t).view.read (Elt Ideal)
      (ffn (V m c main_v11) (V m c main_v12) (V m c main_v13)) := by
  show (cfg0.win 3).cut (grid0.coords t) ((dats m 0 c).after 3 t) = _
  rw [after0_3]
  unfold out0_3
  rw [View.canon_unit_zero hz3]
  simp only [View.ld_unit_zero (S := S1x128x2048) hz3, View.ld_unit_zero (S := S1x2048x2048) hz3, View.ld_unit_zero (S := S1x1024x2048) hz3]
  obtain ⟨a00, a01, a02, a10, a11, a12, a20, a21, a22, o2, o0, o1⟩ := idx_facts t
  funext j
  show k0_pay1 (F := Ideal) (iblk m c 0 t) (iblk m c 1 t) (iblk m c 2 t) j
    = ffn (V m c main_v11) (V m c main_v12) (V m c main_v13) (((cfg0.win 3).blk t).view.emb j)
  refine block_eq (V m c main_v11) (V m c main_v12) (V m c main_v13) (iblk m c 0 t) (iblk m c 1 t) (iblk m c 2 t)
    (win0_3.index t (0 : Fin 3)) (win0_3.index t (1 : Fin 3)) (by omega) (by omega) ?_ ?_ ?_ j (((cfg0.win 3).blk t).view.emb j) ?_ ?_ ?_
  · intro r k
    show V m c main_v11 (((cfg0.win 0).blk t).view.emb (ix3 (0 : Fin 1) r k)) = V m c main_v11 _
    refine congrArg _ ?_
    funext a; apply Fin.ext
    match a with
    | ⟨0, _⟩ => show win0_0.index t (0 : Fin 3) * 1 + 1 * 0 = win0_3.index t (0 : Fin 3); omega
    | ⟨1, _⟩ => show win0_0.index t (1 : Fin 3) * 128 + 1 * r.val = win0_3.index t (1 : Fin 3) * 128 + r.val; omega
    | ⟨2, _⟩ => show win0_0.index t (2 : Fin 3) * 2048 + 1 * k.val = k.val; omega
  · intro k n
    show V m c main_v12 (((cfg0.win 1).blk t).view.emb (ix3 (0 : Fin 1) k n)) = V m c main_v12 _
    refine congrArg _ ?_
    funext a; apply Fin.ext
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 2048 + 1 * n.val = n.val; omega
  · intro i n
    show V m c main_v13 (((cfg0.win 2).blk t).view.emb (ix3 (0 : Fin 1) i n)) = V m c main_v13 _
    refine congrArg _ ?_
    funext a; apply Fin.ext
    match a with
    | ⟨0, _⟩ => show win0_2.index t (0 : Fin 3) * 1 + 1 * 0 = win0_3.index t (0 : Fin 3); omega
    | ⟨1, _⟩ => show win0_2.index t (1 : Fin 3) * 1024 + 1 * i.val = i.val; omega
    | ⟨2, _⟩ => show win0_2.index t (2 : Fin 3) * 2048 + 1 * n.val = n.val; omega
  · show win0_3.index t (0 : Fin 3) * 1 + 1 * (j 0).val = win0_3.index t (0 : Fin 3)
    have hj : (j 0).val < 1 := (j 0).isLt
    omega
  · show win0_3.index t (1 : Fin 3) * 128 + 1 * (j 1).val = win0_3.index t (1 : Fin 3) * 128 + (j 1).val
    omega
  · show win0_3.index t (2 : Fin 3) * 2048 + 1 * (j 2).val = (j 2).val
    omega

/-- An index of the output array is in point `t`'s block iff each coordinate is in the block's range on its axis. -/
theorem mem_blk (t : Fin cfg0.N) (i : S8x2048x2048.Idx) :
    i ∈ ((cfg0.win 3).blk t).view.set ↔ ∀ a : Fin 3, win0_3.index t a * S1x128x2048.size a ≤ (i a).val
      ∧ (i a).val < win0_3.index t a * S1x128x2048.size a + S1x128x2048.size a := by
  show i ∈ ((View.whole main_v14).slice (win0_3.rect t)).set ↔ _
  rw [View.set_slice_whole, Rect.mem_set_unit]
  exact Iff.rfl

/-- The output blocks tile the output array: row `ρ` of group `g` is in the block of the point `(g, ρ / 128)`. -/
theorem cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 2048 ≤ (i 2).val ∧ (i 2).val < win0_3.index t (2 : Fin 3) * 2048 + 2048; omega

/-- THE OUTPUT ARRAY after the region: `ffn` of the token groups and the two weights as the region finds them. -/
theorem final (c : Dev nD) :
    (dats m 0 c).arrAt 3 cfg0.N = ffn (V m c main_v11) (V m c main_v12) (V m c main_v13) :=
  (dats m 0 c).arrAt_eq_of_cover 3 _ (fun t _ => flushed_eq m c t) cover

end Cert.KernelIdeal.Region

end
-- ==== Proof.KernelRun.lean ====
/-
  The kernel program's run, read: host operations, the region, host operations.

  Before the region the host computes the routing and gathers the token rows into groups; the two weights pass
  through a change of float format, the identity at the ideal values. After the region the host scatters the rows
  of the region's output array back to the tokens' positions. Both stretches are folds of host operations over
  the buffer contents and are read here as the specification's routing functions, never opened. With the region's
  array (`final`) the program's result is `moe` of its four arguments.
-/
import proofs.«177609_j6004364280333_1_alg».proof.Proof.KernelValue
import Idealize.ShloMosaic.Lib.StableHlo.Run

noncomputable section

namespace Cert.KernelIdeal.Region

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Moe

variable (m : (ℓ : Loc nD τ sig) → Buf (Elt Ideal) ℓ) (ρ : Dev nD → PrngReg)

/-- The host operations before the region, as one list. -/
abbrev preOps : List (HloOp τ sig (Elt Ideal)) :=
  List.flatten [hostOps0, hostOps0_1, hostOps0_2, hostOps0_3, hostOps0_4]

attribute [local irreducible] Host.sort2 Host.gather Host.scatter in
set_option maxRecDepth 16384 in
set_option maxHeartbeats 1600000 in
/-- Over any contents: after the host operations before the region, the sorted positions' buffer holds `order` of
    the position argument. -/
theorem pre_order (W : Valuation τ sig (Elt Ideal)) :
    (after preOps W (main_v3 : DevRef τ sig) : IVec S16384 32) = order (W (main_arg1 : DevRef τ sig)) := by
  simp only [preOps, hostOps0, hostOps0_1, hostOps0_2, hostOps0_3, hostOps0_4, List.flatten_cons, List.flatten_nil, List.append_nil,
    List.cons_append, List.nil_append]
  after_results_simp
  rfl

attribute [local irreducible] Host.sort2 Host.gather Host.scatter in
set_option maxRecDepth 16384 in
set_option maxHeartbeats 1600000 in
/-- Over any contents: after the host operations before the region, the region's token array holds the token rows
    grouped by expert. -/
theorem pre_grouped (W : Valuation τ sig (Elt Ideal)) :
    (after preOps W (main_v11 : DevRef τ sig) : FVec Ideal S8x2048x2048 .f32)
      = grouped (W (main_arg0 : DevRef τ sig)) (order (W (main_arg1 : DevRef τ sig))) := by
  simp only [preOps, hostOps0, hostOps0_1, hostOps0_2, hostOps0_3, hostOps0_4, List.flatten_cons, List.flatten_nil, List.append_nil,
    List.cons_append, List.nil_append]
  after_results_simp
  rfl

attribute [local irreducible] Host.sort2 Host.gather Host.scatter in
set_option maxRecDepth 16384 in
set_option maxHeartbeats 1600000 in
/-- Over any contents: the two weight arrays the region stages are the weight arguments (the change of format is
    the identity at the ideal values). -/
theorem pre_w1 (W : Valuation τ sig (Elt Ideal)) :
    (after preOps W (main_v12 : DevRef τ sig) : FVec Ideal S8x2048x2048 .f32) = W (main_arg2 : DevRef τ sig) := by
  simp only [preOps, hostOps0, hostOps0_1, hostOps0_2, hostOps0_3, hostOps0_4, List.flatten_cons, List.flatten_nil, List.append_nil,
    List.cons_append, List.nil_append]
  after_results_simp
  rfl

attribute [local irreducible] Host.sort2 Host.gather Host.scatter in
set_option maxRecDepth 16384 in
set_option maxHeartbeats 1600000 in
theorem pre_w2 (W : Valuation τ sig (Elt Ideal)) :
    (after preOps W (main_v13 : DevRef τ sig) : FVec Ideal S8x1024x2048 .f32) = W (main_arg3 : DevRef τ sig) := by
  simp only [preOps, hostOps0, hostOps0_1, hostOps0_2, hostOps0_3, hostOps0_4, List.flatten_cons, List.flatten_nil, List.append_nil,
    List.cons_append, List.nil_append]
  after_results_simp
  rfl

attribute [local irreducible] Host.sort2 Host.gather Host.scatter in
set_option maxRecDepth 16384 in
set_option maxHeartbeats 1600000 in
/-- Over any contents: after the host operations after the region, the result buffer holds the rows of the region's
    output array scattered back by the sorted positions. -/
theorem post_ungroup (W : Valuation τ sig (Elt Ideal)) :
    (after hostOps1 W (main_v24 : DevRef τ sig) : FVec Ideal S4x4096x2048 .f32)
      = ungroup (W (main_v3 : DevRef τ sig)) (W (main_v14 : DevRef τ sig)) := by
  simp only [hostOps1]
  after_results_simp
  rfl

/-! ## The region-entry contents and the result, in the arguments -/

/-- When the region is entered the sorted positions' buffer holds `order` of the position argument. -/
theorem V_order (c : Dev nD) : (V m c main_v3 : IVec S16384 32) = order (m ((c.tc : Thread nD τ).loc main_arg1)) :=
  pre_order (fun b => m (c, b))

/-- The region's token array is the token rows grouped by expert. -/
theorem V_grouped (c : Dev nD) : (V m c main_v11 : FVec Ideal S8x2048x2048 .f32)
    = grouped (m ((c.tc : Thread nD τ).loc main_arg0)) (order (m ((c.tc : Thread nD τ).loc main_arg1))) :=
  pre_grouped (fun b => m (c, b))

/-- The region's two weight arrays are the weight arguments. -/
theorem V_w1 (c : Dev nD) : (V m c main_v12 : FVec Ideal S8x2048x2048 .f32) = m ((c.tc : Thread nD τ).loc main_arg2) :=
  pre_w1 (fun b => m (c, b))
theorem V_w2 (c : Dev nD) : (V m c main_v13 : FVec Ideal S8x1024x2048 .f32) = m ((c.tc : Thread nD τ).loc main_arg3) :=
  pre_w2 (fun b => m (c, b))

/-- THE RESULT: what the host operations after the region leave in the result buffer is `moe` of the arguments —
    the scatter reads the sorted positions (a buffer the region does not touch) and the region's output array. -/
theorem result_eq (c : Dev nD) :
    (Pipeline.afterTail₀ cfgs (dats m) 0 (V0 m) [hostOps1] c main_v24 : FVec Ideal S4x4096x2048 .f32)
      = moe (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  simp only [List.flatten_cons, List.flatten_nil, List.append_nil]
  refine (post_ungroup _).trans ?_
  have h3 := Pipeline.withArrays_of_ne (cfgs 0).spec c (V0 m c) (fun w => (dats m 0 c).arrAt w (cfgs 0).N) main_v3
    (by exact (by decide : ∀ w, Pipeline.arrRef spec0 w ≠ main_v3))
  have h14 := Pipeline.withArrays_arr spec0 launch0.win.arr_inj c (V0 m c) (fun w => (dats m 0 c).arrAt w (cfgs 0).N) 3
  have e3 : (Pipeline.withArrays (cfgs 0).spec c (V0 m c) (fun w => (dats m 0 c).arrAt w (cfgs 0).N) (Proc.devRef .tc main_v3) : IVec S16384 32)
      = order (m ((c.tc : Thread nD τ).loc main_arg1)) := h3.trans (V_order m c)
  have e14 : (Pipeline.withArrays (cfgs 0).spec c (V0 m c) (fun w => (dats m 0 c).arrAt w (cfgs 0).N) (Proc.devRef .tc main_v14) : FVec Ideal S8x2048x2048 .f32)
      = ffn (grouped (m ((c.tc : Thread nD τ).loc main_arg0)) (order (m ((c.tc : Thread nD τ).loc main_arg1))))
          (m ((c.tc : Thread nD τ).loc main_arg2)) (m ((c.tc : Thread nD τ).loc main_arg3)) := by
    refine (h14.trans (final m c)).trans ?_
    rw [V_grouped, V_w1, V_w2]
  rw [e3, e14]
  rfl

/-- THE RUN: every weakly fair execution of the kernel program terminates with the result buffer at `moe` of the
    arguments and the arguments unchanged. -/
theorem run : θ_run defs (onTc (τ := τ) (main (F := Ideal))) ⟨m, fun _ => 0, ρ⟩ fun r => ∀ c : Dev nD,
      r.2.mem ((c.tc : Thread nD τ).loc main_v24)
        = moe (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Region

end
-- ==== Proof.RefRun.lean ====
/-
  The run of the reference program, read back as a list of host operations.

  The reference is a program of StableHLO operations only (no kernel): @main is a straight line of operations
  with three calls of module-local functions — `remainder` (which itself calls `_where`), `argsort` and `silu`.
  A call means its callee's body substituted at the call site over the call's own buffers, so once the callees'
  definitions unfold, @main is one chain of 64 operations: the expert index of every token reduced modulo the
  number of experts (8) with the sign correction of a floored remainder; the stable argsort of the flattened
  expert indices; the gather of the token rows in that order; per expert the product with the first weight, its
  two halves combined as `silu(gate) * up` with `silu(g) = g * (1 / (1 + exp (-g)))`, and the product with the
  second weight; and the scatter of the rows back to the tokens' original positions over a zero array.
  Such a list runs by the library's theorem for straight lines: every weakly fair execution terminates and each
  buffer ends at the fold of the operations over the launch contents.
-/
import proofs.«177609_j6004364280333_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 64 operations in order, the calls unfolded: the constant 8; `remainder`'s twenty-one over the
    record `main_call0` (the divisor converted to its own type, the test `divisor = 0` and the constant 1,
    `_where`'s one select over `main_call0.call0` replacing a zero divisor by 1, the divisor broadcast, the
    truncated remainder, and the floored correction: where the remainder is non-zero and its sign differs from the
    divisor's, the divisor is added); the two reshapes to a flat token axis; `argsort`'s three over `main_call1`
    (the iota and the two results of the stable sort of (key, position) pairs by key); the index normalisation
    (a negative index plus 16384), its broadcast to a column, the gather of rows and the reshape to one block of
    2048 rows per expert; the first product, its two column halves; `silu`'s nine over `main_call2`
    (negate, exponential, one plus it, the reciprocal as `1 / ·`, times the argument); the product with the second half
    and the second matrix product; then the zero array, the reshape of the products to rows, the same index
    normalisation, the scatter of the rows at those indices and the final reshape. -/
abbrev ops : List (HloOp τ sig (Elt F)) :=
  [ nullary main_c (constantI S_ 32 8#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4x4096 ![] bcast_S_S4x4096),
    TRef.binary (.of main_arg1 : TRef sig ⟨S4x4096, .i32⟩) main_call0.v3 main_call0.v4 Host.remsi,
    TRef.nullary main_call0.c_1 (constantI S_ 32 0#32),
    TRef.unary main_call0.c_1 main_call0.v5 (broadcastInDim S4x4096 ![] bcast_S_S4x4096),
    TRef.binary main_call0.v4 main_call0.v5 main_call0.v6 (cmpi .ne),
    TRef.nullary main_call0.c_2 (constantI S_ 32 0#32),
    TRef.unary main_call0.c_2 main_call0.v7 (broadcastInDim S4x4096 ![] bcast_S_S4x4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4x4096 ![] bcast_S_S4x4096),
    TRef.binary main_call0.v8 main_call0.v10 main_call0.v11 (cmpi .ne),
    TRef.binary main_call0.v11 main_call0.v6 main_call0.v12 andi,
    TRef.unary main_call0.call0.v0 main_call0.v13 (broadcastInDim S4x4096 ![] bcast_S_S4x4096),
    TRef.binary main_call0.v4 main_call0.v13 main_call0.v14 addi,
    TRef.ternary main_call0.v12 main_call0.v14 main_call0.v4 main_call0.v15 select,
    reshape main_v0 main_v1 rfl shapeCasts_S4x4096_S16384,
    reshape main_arg0 main_v2 rfl shapeCasts_S4x4096x2048_S16384x2048,
    TRef.nullary main_call1.v0 (iotaInDim S16384 32 0),
    TRef.binary (.of main_v1 : TRef sig ⟨S16384, .i32⟩) main_call1.v0 main_call1.v1_0 (fun x y => (Host.sort2 S16384 0 comparator_i32_i32_d0 x y).1),
    TRef.binary (.of main_v1 : TRef sig ⟨S16384, .i32⟩) main_call1.v0 main_call1.v1_1 (fun x y => (Host.sort2 S16384 0 comparator_i32_i32_d0 x y).2),
    nullary main_c_0 (constantI S_ 32 0#32),
    unary main_c_0 main_v4 (broadcastInDim S16384 ![] bcast_S_S16384 : (⟨S_, .i32⟩ : BufTy).Contents (Elt F) → (⟨S16384, .i32⟩ : BufTy).Contents (Elt F)),
    binary main_v3 main_v4 main_v5 (cmpi .slt : (⟨S16384, .i32⟩ : BufTy).Contents (Elt F) → (⟨S16384, .i32⟩ : BufTy).Contents (Elt F) → (⟨S16384, .i1⟩ : BufTy).Contents (Elt F)),
    nullary main_c_1 (constantI S_ 32 16384#32),
    unary main_c_1 main_v6 (broadcastInDim S16384 ![] bcast_S_S16384 : (⟨S_, .i32⟩ : BufTy).Contents (Elt F) → (⟨S16384, .i32⟩ : BufTy).Contents (Elt F)),
    binary main_v3 main_v6 main_v7 (addi : (⟨S16384, .i32⟩ : BufTy).Contents (Elt F) → (⟨S16384, .i32⟩ : BufTy).Contents (Elt F) → (⟨S16384, .i32⟩ : BufTy).Contents (Elt F)),
    ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v8 main_v9 (broadcastInDim S16384x1 ![0] bcast_S16384_S16384x1_0 : (⟨S16384, .i32⟩ : BufTy).Contents (Elt F) → (⟨S16384x1, .i32⟩ : BufTy).Contents (Elt F)),
    binary main_v2 main_v9 main_v10 ((fun x i => Host.gather gather_S16384x2048_S16384x1_S16384x2048_1_0_n_n_0_1_12048 x i) : (⟨S16384x2048, .f32⟩ : BufTy).Contents (Elt F) → (⟨S16384x1, .i32⟩ : BufTy).Contents (Elt F) → (⟨S16384x2048, .f32⟩ : BufTy).Contents (Elt F)),
    reshape main_v10 main_v11 rfl shapeCasts_S16384x2048_S8x2048x2048,
    binary main_v11 main_arg2 main_v12 ((fun l r => Host.dotGeneral dot_S8x2048x2048_S8x2048x2048_S8x2048x2048_2_1_1_2_0_0 none l r) : (⟨S8x2048x2048, .f32⟩ : BufTy).Contents (Elt F) → (⟨S8x2048x2048, .f32⟩ : BufTy).Contents (Elt F) → (⟨S8x2048x2048, .f32⟩ : BufTy).Contents (Elt F)),
    unary main_v12 main_v13 ((extractStridedSlice S8x2048x1024 ![0, 0, 0] · slices_S8x2048x2048_S8x2048x1024_0_0_0) : (⟨S8x2048x2048, .f32⟩ : BufTy).Contents (Elt F) → (⟨S8x2048x1024, .f32⟩ : BufTy).Contents (Elt F)),
    unary main_v12 main_v14 ((extractStridedSlice S8x2048x1024 ![0, 0, 1024] · slices_S8x2048x2048_S8x2048x1024_0_0_1024) : (⟨S8x2048x2048, .f32⟩ : BufTy).Contents (Elt F) → (⟨S8x2048x1024, .f32⟩ : BufTy).Contents (Elt F)),
    TRef.unary (.of main_v13 : TRef sig ⟨S8x2048x1024, .f32⟩) main_call2.v0 Host.negf,
    TRef.unary main_call2.v0 main_call2.v1 Host.exp,
    TRef.nullary main_call2.cst (constant S_ .f32 0x3F800000#32),
    TRef.unary main_call2.cst main_call2.v2 (broadcastInDim S8x2048x1024 ![] bcast_S_S8x2048x1024),
    TRef.binary main_call2.v2 main_call2.v1 main_call2.v3 addf,
    TRef.nullary main_call2.cst_0 (constant S_ .f32 0x3F800000#32),
    TRef.unary main_call2.cst_0 main_call2.v4 (broadcastInDim S8x2048x1024 ![] bcast_S_S8x2048x1024),
    TRef.binary main_call2.v4 main_call2.v3 main_call2.v5 Host.divf,
    TRef.binary (.of main_v13 : TRef sig ⟨S8x2048x1024, .f32⟩) main_call2.v5 main_call2.v6 mulf,
    binary main_v15 main_v14 main_v16 (mulf : (⟨S8x2048x1024, .f32⟩ : BufTy).Contents (Elt F) → (⟨S8x2048x1024, .f32⟩ : BufTy).Contents (Elt F) → (⟨S8x2048x1024, .f32⟩ : BufTy).Contents (Elt F)),
    binary main_v16 main_arg3 main_v17 ((fun l r => Host.dotGeneral dot_S8x2048x1024_S8x1024x2048_S8x2048x2048_2_1_1_2_0_0 none l r) : (⟨S8x2048x1024, .f32⟩ : BufTy).Contents (Elt F) → (⟨S8x1024x2048, .f32⟩ : BufTy).Contents (Elt F) → (⟨S8x2048x2048, .f32⟩ : BufTy).Contents (Elt F)),
    nullary main_cst (constant S_ .f32 0x00000000#32),
    unary main_cst main_v18 (broadcastInDim S16384x2048 ![] bcast_S_S16384x2048 : (⟨S_, .f32⟩ : BufTy).Contents (Elt F) → (⟨S16384x2048, .f32⟩ : BufTy).Contents (Elt F)),
    reshape main_v17 main_v19 rfl shapeCasts_S8x2048x2048_S16384x2048,
    nullary main_c_2 (constantI S_ 32 0#32),
    unary main_c_2 main_v20 (broadcastInDim S16384 ![] bcast_S_S16384 : (⟨S_, .i32⟩ : BufTy).Contents (Elt F) → (⟨S16384, .i32⟩ : BufTy).Contents (Elt F)),
    binary main_v3 main_v20 main_v21 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v22 (broadcastInDim S16384 ![] bcast_S_S16384 : (⟨S_, .i32⟩ : BufTy).Contents (Elt F) → (⟨S16384, .i32⟩ : BufTy).Contents (Elt F)),
    binary main_v3 main_v22 main_v23 (addi : (⟨S16384, .i32⟩ : BufTy).Contents (Elt F) → (⟨S16384, .i32⟩ : BufTy).Contents (Elt F) → (⟨S16384, .i32⟩ : BufTy).Contents (Elt F)),
    ternary main_v21 main_v23 main_v3 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v24 main_v25 (broadcastInDim S16384x1 ![0] bcast_S16384_S16384x1_0 : (⟨S16384, .i32⟩ : BufTy).Contents (Elt F) → (⟨S16384x1, .i32⟩ : BufTy).Contents (Elt F)),
    ternary main_v18 main_v25 main_v19 main_v26 ((fun x i u => Host.scatter scatter_S16384x2048_S16384x1_S16384x2048_1_0_0_1 (fun _ b => b) x i u) : (⟨S16384x2048, .f32⟩ : BufTy).Contents (Elt F) → (⟨S16384x1, .i32⟩ : BufTy).Contents (Elt F) → (⟨S16384x2048, .f32⟩ : BufTy).Contents (Elt F) → (⟨S16384x2048, .f32⟩ : BufTy).Contents (Elt F)),
    reshape main_v26 main_v27 rfl shapeCasts_S16384x2048_S4x4096x2048 ]

-- 64 binds re-associated: the rewrite under the chain recurses once per statement
set_option maxRecDepth 2048 in
/-- @main is that straight line: with the functions' definitions unfolded at their calls and sequencing
    re-associated (`bind_assoc`, `pure_bind`), both sides are one chain of the same steps, the calls' records
    read at their fields by computation. -/
theorem main_eq (c : Dev nD) : main (F := F) c = seq ops := by
  simp only [main, fn_remainder.body, fn_where.body, fn_argsort.body, fn_silu.body, seq, bind_assoc, pure_bind]

/-- No TensorCore buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide

/-- Every operation of the list reads and writes TensorCore device buffers only. -/
theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., reshape_bufs_sub .., reshape_bufs_sub ..,
    nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., binary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
/-
  The reference's result, read as the specification's function.

  The fold of the reference's operations at its result buffer is, by computation, the routing carried as four
  functions (the sorted order of the tokens, the rows gathered into 8 groups of 2048, and the rows scattered back)
  around the middle stretch `refFfn`: the product of each group with its expert's first weight, the two column halves
  of that product combined as `silu(gate) * up` with `silu(g) = g * (1 / (1 + exp (-g)))`, and the product with the
  expert's second weight. The arguments' buffers are written by no operation and keep their contents.

  The mathematics is `refFfn_eq`: read at an output index `(e, b, h)`, the middle stretch is
      ∑ i < 1024, ((g i * σ(g i)) * u i) * W2 e i h,   g i = ∑ k, x e b k * W1 e k i,   u i = ∑ k, x e b k * W1 e k (1024 + i),
  with `σ` the logistic function — each matrix product is the sum over its one contracted axis of the operands'
  products (the batch axis read at `e`, the free axes at the output's coordinates), a column half reads the product at
  column `i` or `1024 + i`, the word `0x3F800000` is the extended real `1`, and `1 / (1 + exp (-g))` is `σ(g)` by
  the definition of `σ`. The two sides are the same sums of the same products: no finiteness is needed.
-/
import proofs.«177609_j6004364280333_1_alg».proof.Proof.RefRun
import proofs.«177609_j6004364280333_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx

/-! ## The middle stretch as a function -/

/-- The one-array of the activation: the scalar `1` broadcast to a block of gate values. -/
def ones : FVec Ideal S8x2048x1024 .f32 :=
  broadcastInDim S8x2048x1024 ![] bcast_S_S8x2048x1024 (constant (F := Ideal) S_ .f32 0x3F800000#32)

/-- `silu(g) * u` elementwise, as the reference spells it: `g * (1 / (1 + exp (-g)))` times `u`. -/
def refAct (g u : FVec Ideal S8x2048x1024 .f32) : FVec Ideal S8x2048x1024 .f32 :=
  mulf (mulf g (Host.divf ones (addf ones (Host.exp (Host.negf g))))) u

/-- The reference's middle stretch as host operations: the product with the first weight, its two column halves
    combined as `silu(gate) * up`, and the product with the second weight. -/
def refFfn (xg : FVec Ideal S8x2048x2048 .f32) (w1 : FVec Ideal S8x2048x2048 .f32) (w2 : FVec Ideal S8x1024x2048 .f32) :
    FVec Ideal S8x2048x2048 .f32 :=
  Host.dotGeneral (F := Ideal) dot_S8x2048x1024_S8x1024x2048_S8x2048x2048_2_1_1_2_0_0 none
    (refAct
      (extractStridedSlice S8x2048x1024 ![0, 0, 0]
        (Host.dotGeneral (F := Ideal) dot_S8x2048x2048_S8x2048x2048_S8x2048x2048_2_1_1_2_0_0 none xg w1)
        slices_S8x2048x2048_S8x2048x1024_0_0_0)
      (extractStridedSlice S8x2048x1024 ![0, 0, 1024]
        (Host.dotGeneral (F := Ideal) dot_S8x2048x2048_S8x2048x2048_S8x2048x2048_2_1_1_2_0_0 none xg w1)
        slices_S8x2048x2048_S8x2048x1024_0_0_1024))
    w2

/-! ## The fold at the result and at the arguments -/

attribute [local irreducible] Host.sort2 Host.gather Host.scatter in
set_option maxRecDepth 8192 in
set_option maxHeartbeats 1600000 in
/-- The fold of the reference's operations at the result buffer is the routing around the middle stretch: the rows
    gathered in the sorted order of the tokens' experts, through `refFfn` with the two weights, scattered back at the
    tokens' own positions. Each operation's result at a buffer is read off in one pass (the buffer it writes, or the
    earlier contents elsewhere), which leaves the operations' composed term; that term is the right-hand side by
    unfolding — the typed references' transports are the identity at literal references, and the sort, the gather and
    the scatter are kept folded, the equation never looking inside them. -/
theorem out_eq (V : Valuation τ sig (Elt Ideal)) :
    after (RefRun.ops (F := Ideal)) V (main_v27 : DevRef τ sig)
      = Cert.Moe.ungroup (Cert.Moe.order (V (main_arg1 : DevRef τ sig)))
          (refFfn (Cert.Moe.grouped (V (main_arg0 : DevRef τ sig)) (Cert.Moe.order (V (main_arg1 : DevRef τ sig))))
            (V (main_arg2 : DevRef τ sig)) (V (main_arg3 : DevRef τ sig))) := by
  after_results_simp
  rfl

set_option maxRecDepth 8192 in
set_option maxHeartbeats 800000 in
/-- No operation writes argument 0's buffer: it keeps its contents, for any float values. -/
theorem arg0_eq {F : FTy → Type} [FloatOps F] (V : Valuation τ sig (Elt F)) :
    after (RefRun.ops (F := F)) V (main_arg0 : DevRef τ sig) = V (main_arg0 : DevRef τ sig) := by
  after_results_simp

set_option maxRecDepth 8192 in
set_option maxHeartbeats 800000 in
/-- No operation writes argument 1's buffer: it keeps its contents, for any float values. -/
theorem arg1_eq {F : FTy → Type} [FloatOps F] (V : Valuation τ sig (Elt F)) :
    after (RefRun.ops (F := F)) V (main_arg1 : DevRef τ sig) = V (main_arg1 : DevRef τ sig) := by
  after_results_simp

set_option maxRecDepth 8192 in
set_option maxHeartbeats 800000 in
/-- No operation writes argument 2's buffer: it keeps its contents, for any float values. -/
theorem arg2_eq {F : FTy → Type} [FloatOps F] (V : Valuation τ sig (Elt F)) :
    after (RefRun.ops (F := F)) V (main_arg2 : DevRef τ sig) = V (main_arg2 : DevRef τ sig) := by
  after_results_simp

set_option maxRecDepth 8192 in
set_option maxHeartbeats 800000 in
/-- No operation writes argument 3's buffer: it keeps its contents, for any float values. -/
theorem arg3_eq {F : FTy → Type} [FloatOps F] (V : Valuation τ sig (Elt F)) :
    after (RefRun.ops (F := F)) V (main_arg3 : DevRef τ sig) = V (main_arg3 : DevRef τ sig) := by
  after_results_simp

/-! ## The two matrix products read at an index -/

/-- The first product at `(e, b, n)`: row `b` of group `e` against column `n` of expert `e`'s first weight. -/
theorem dot1_apply (xg w1 : FVec Ideal S8x2048x2048 .f32) (e : Fin 8) (b n : Fin 2048) :
    Host.dotGeneral (F := Ideal) dot_S8x2048x2048_S8x2048x2048_S8x2048x2048_2_1_1_2_0_0 none xg w1 (ix3 e b n)
      = ∑ k : Fin 2048, xg (ix3 e b k) * w1 (ix3 e k n) := by
  simp only [Host.dotGeneral]
  rw [Ideal.dotGeneral_apply, ← Equiv.sum_comp (contrEquiv1 dot_S8x2048x2048_S8x2048x2048_S8x2048x2048_2_1_1_2_0_0 2048 rfl rfl).symm]
  refine Finset.sum_congr rfl fun k _ => ?_
  have hl : (dot_S8x2048x2048_S8x2048x2048_S8x2048x2048_2_1_1_2_0_0).lhsIdx (ix3 e b n) ((contrEquiv1 dot_S8x2048x2048_S8x2048x2048_S8x2048x2048_2_1_1_2_0_0 2048 rfl rfl).symm k) = ix3 e b k := by
    funext a
    match a with
    | ⟨0, _⟩ => exact Fin.ext rfl
    | ⟨1, _⟩ => exact Fin.ext rfl
    | ⟨2, _⟩ =>
      refine Fin.ext ?_
      exact ((dot_S8x2048x2048_S8x2048x2048_S8x2048x2048_2_1_1_2_0_0).lhsIdx_val_of_single (cl := 2) rfl _ _).trans (contrEquiv1_symm_val _ _ _ _ k)
  have hr : (dot_S8x2048x2048_S8x2048x2048_S8x2048x2048_2_1_1_2_0_0).rhsIdx (ix3 e b n) ((contrEquiv1 dot_S8x2048x2048_S8x2048x2048_S8x2048x2048_2_1_1_2_0_0 2048 rfl rfl).symm k) = ix3 e k n := by
    funext a
    match a with
    | ⟨0, _⟩ => exact Fin.ext rfl
    | ⟨1, _⟩ =>
      refine Fin.ext ?_
      exact ((dot_S8x2048x2048_S8x2048x2048_S8x2048x2048_2_1_1_2_0_0).rhsIdx_val_of_single (cr := 1) rfl _ _).trans (contrEquiv1_symm_val _ _ _ _ k)
    | ⟨2, _⟩ => exact Fin.ext rfl
  rw [hl, hr]

/-- The second product at `(e, b, h)`: row `b` of group `e` of the activations against column `h` of expert `e`'s
    second weight. -/
theorem dot2_apply (a : FVec Ideal S8x2048x1024 .f32) (w2 : FVec Ideal S8x1024x2048 .f32) (e : Fin 8) (b h : Fin 2048) :
    Host.dotGeneral (F := Ideal) dot_S8x2048x1024_S8x1024x2048_S8x2048x2048_2_1_1_2_0_0 none a w2 (ix3 e b h)
      = ∑ i : Fin 1024, a (ix3 e b i) * w2 (ix3 e i h) := by
  simp only [Host.dotGeneral]
  rw [Ideal.dotGeneral_apply, ← Equiv.sum_comp (contrEquiv1 dot_S8x2048x1024_S8x1024x2048_S8x2048x2048_2_1_1_2_0_0 1024 rfl rfl).symm]
  refine Finset.sum_congr rfl fun k _ => ?_
  have hl : (dot_S8x2048x1024_S8x1024x2048_S8x2048x2048_2_1_1_2_0_0).lhsIdx (ix3 e b h) ((contrEquiv1 dot_S8x2048x1024_S8x1024x2048_S8x2048x2048_2_1_1_2_0_0 1024 rfl rfl).symm k) = ix3 e b k := by
    funext a
    match a with
    | ⟨0, _⟩ => exact Fin.ext rfl
    | ⟨1, _⟩ => exact Fin.ext rfl
    | ⟨2, _⟩ =>
      refine Fin.ext ?_
      exact ((dot_S8x2048x1024_S8x1024x2048_S8x2048x2048_2_1_1_2_0_0).lhsIdx_val_of_single (cl := 2) rfl _ _).trans (contrEquiv1_symm_val _ _ _ _ k)
  have hr : (dot_S8x2048x1024_S8x1024x2048_S8x2048x2048_2_1_1_2_0_0).rhsIdx (ix3 e b h) ((contrEquiv1 dot_S8x2048x1024_S8x1024x2048_S8x2048x2048_2_1_1_2_0_0 1024 rfl rfl).symm k) = ix3 e k h := by
    funext a
    match a with
    | ⟨0, _⟩ => exact Fin.ext rfl
    | ⟨1, _⟩ =>
      refine Fin.ext ?_
      exact ((dot_S8x2048x1024_S8x1024x2048_S8x2048x2048_2_1_1_2_0_0).rhsIdx_val_of_single (cr := 1) rfl _ _).trans (contrEquiv1_symm_val _ _ _ _ k)
    | ⟨2, _⟩ => exact Fin.ext rfl
  rw [hl, hr]

/-! ## The two column halves and the activation read at an index -/

/-- The first half of the columns at `(e, b, i)` is the array at column `i`. -/
theorem slice_lo_apply (X : FVec Ideal S8x2048x2048 .f32) (e : Fin 8) (b : Fin 2048) (i : Fin 1024) :
    extractStridedSlice S8x2048x1024 ![0, 0, 0] X slices_S8x2048x2048_S8x2048x1024_0_0_0 (ix3 e b i)
      = X (ix3 e b ⟨i.val, by omega⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The second half of the columns at `(e, b, i)` is the array at column `1024 + i`. -/
theorem slice_hi_apply (X : FVec Ideal S8x2048x2048 .f32) (e : Fin 8) (b : Fin 2048) (i : Fin 1024) :
    extractStridedSlice S8x2048x1024 ![0, 0, 1024] X slices_S8x2048x2048_S8x2048x1024_0_0_1024 (ix3 e b i)
      = X (ix3 e b ⟨1024 + i.val, by omega⟩) :=
  extractStridedSlice_apply _ _ _ _ _ (fun ax => by
    match ax with
    | ⟨0, _⟩ => exact (Nat.zero_add _).symm
    | ⟨1, _⟩ => exact (Nat.zero_add _).symm
    | ⟨2, _⟩ => rfl)

/-- The one-array reads the extended real `1` everywhere. -/
theorem ones_apply (j : S8x2048x1024.Idx) : ones j = 1 := by
  unfold ones
  rw [broadcastInDim_scalar_apply, constant_apply, Ideal.ofBits_one_f32]

/-- The activation at an index: `g * (1 / (1 + exp (-g)))` is `g` times the logistic function of `g`, by the
    definition of the logistic function. -/
theorem refAct_apply (g u : FVec Ideal S8x2048x1024 .f32) (j : S8x2048x1024.Idx) :
    refAct g u j = (g j * Ideal.logistic (g j)) * u j := by
  show (g j * Ideal.div (ones j) (ones j + Ideal.exp (-(g j)))) * u j = _
  rw [ones_apply]
  rfl

/-- THE MATHEMATICS of the reference's middle stretch: at every `(e, b, h)` it is the expert's network on row `b` of
    group `e` at output column `h` — the same sums of the same products. -/
theorem refFfn_eq (xg : FVec Ideal S8x2048x2048 .f32) (w1 : FVec Ideal S8x2048x2048 .f32) (w2 : FVec Ideal S8x1024x2048 .f32) :
    refFfn xg w1 w2 = Cert.Moe.ffn xg w1 w2 := by
  funext j
  obtain ⟨e, b, h, rfl⟩ : ∃ (e : Fin 8) (b : Fin 2048) (h : Fin 2048), j = ix3 e b h := ⟨j 0, j 1, j 2, eq_ix3 j⟩
  unfold refFfn
  rw [dot2_apply]
  show _ = ∑ i : Fin 1024, ((Cert.Moe.gate (fun k => xg (ix3 e b k)) (fun k n => w1 (ix3 e k n)) i
      * Ideal.logistic (Cert.Moe.gate (fun k => xg (ix3 e b k)) (fun k n => w1 (ix3 e k n)) i))
      * Cert.Moe.up (fun k => xg (ix3 e b k)) (fun k n => w1 (ix3 e k n)) i) * w2 (ix3 e i h)
  refine Finset.sum_congr rfl fun i _ => ?_
  rw [refAct_apply, slice_lo_apply, slice_hi_apply, dot1_apply, dot1_apply]
  rfl

end Cert.ReferenceIdeal.RefRead

end
-- ==== Proof.lean ====
/- The certificate of a position-routed mixture of experts: a Pallas kernel against its jnp reference.

   Both programs route 16384 tokens to 8 experts by position modulo 8: a stable argsort of the experts' indices,
   a gather of the token rows into 8 groups of 2048 rows, the expert's feed-forward network on each group, and a scatter
   of the result rows back to the tokens' positions. The routing is the same chain of host operations in both and is
   carried as four functions that are never opened (Proof/Spec.lean). The kernel computes the network 128 rows at a
   time on an 8 × 16 grid, rounding its matrix operands to a narrower float format, which at the ideal values is the
   identity; the reference computes it with two batched matrix products over whole groups. At the ideal values every
   matrix product is the plain sum of products, the kernel's logistic function is the reference's `1 / (1 + exp (-g))`
   by definition, and both results are `Cert.Moe.moe` of the four arguments, index by index: the same sums of the same
   products, so no finiteness of the inputs is used.
     Proof/KernelBlock.lean   one block of the kernel at an element
     Proof/KernelValue.lean   the output blocks tile the output array: the region leaves `ffn` of what it finds
     Proof/KernelRun.lean     the host operations around the region; the kernel program's run
     Proof/RefRun.lean        the reference as a list of host operations, and its run
     Proof/RefRead.lean       the reference's result read as the same function
   The frames of the two kernel programs are the generated ones; the reference's frame is its run with the result
   dropped; the idealization rewrote nothing, so `preserves` is trivial. -/
import proofs.«177609_j6004364280333_1_alg».proof.Defs
import proofs.«177609_j6004364280333_1_alg».proof.Proof.Gen.Kernel
import proofs.«177609_j6004364280333_1_alg».proof.Proof.Gen.Kernel.Skeleton
import proofs.«177609_j6004364280333_1_alg».proof.Proof.Gen.Kernel.Launch
import proofs.«177609_j6004364280333_1_alg».proof.Proof.Gen.Kernel.Points
import proofs.«177609_j6004364280333_1_alg».proof.Proof.Gen.Kernel.Frame
import proofs.«177609_j6004364280333_1_alg».proof.Proof.Gen.KernelIdeal
import proofs.«177609_j6004364280333_1_alg».proof.Proof.Gen.KernelIdeal.Skeleton
import proofs.«177609_j6004364280333_1_alg».proof.Proof.Gen.KernelIdeal.Launch
import proofs.«177609_j6004364280333_1_alg».proof.Proof.Gen.KernelIdeal.Points
import proofs.«177609_j6004364280333_1_alg».proof.Proof.Gen.KernelIdeal.Frame
import proofs.«177609_j6004364280333_1_alg».proof.Proof.Gen.ReferenceIdeal
import proofs.«177609_j6004364280333_1_alg».proof.Proof.Gen.Pre_finite_inputs
import proofs.«177609_j6004364280333_1_alg».proof.Proof.KernelRun
import proofs.«177609_j6004364280333_1_alg».proof.Proof.RefRead
import Idealize.ShloMosaic.Adequacy
import Idealize.ShloMosaic.Init

noncomputable section

namespace Cert.Proof

open Idealize.ShloMosaic Idealize.ShloMosaic.TcCoe Idealize.SL.Sem

/-- The reference's run, read: every weakly fair execution terminates with the result buffer at `moe` of the
    arguments (the fold at the result is the routing around the reference's middle stretch, which is `ffn`) and the
    arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v27)
          = Cert.Moe.moe (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c =>
    ⟨(h c Cert.ReferenceIdeal.main_v27).trans
        ((Cert.ReferenceIdeal.RefRead.out_eq _).trans (by rw [Cert.ReferenceIdeal.RefRead.refFfn_eq]; rfl)),
      (h c Cert.ReferenceIdeal.main_arg0).trans (Cert.ReferenceIdeal.RefRead.arg0_eq _),
      (h c Cert.ReferenceIdeal.main_arg1).trans (Cert.ReferenceIdeal.RefRead.arg1_eq _),
      (h c Cert.ReferenceIdeal.main_arg2).trans (Cert.ReferenceIdeal.RefRead.arg2_eq _),
      (h c Cert.ReferenceIdeal.main_arg3).trans (Cert.ReferenceIdeal.RefRead.arg3_eq _)⟩)
    (Cert.ReferenceIdeal.RefRun.run_main (F := Ideal) m ρ)

/-- The word-level kernel program terminates, faults nowhere and keeps its arguments: the generated frame. -/
theorem frame_k : Cert.frame_Kernel := fun m ρ _ => Cert.Kernel.Gen.frame m ρ

/-- The same of the idealized kernel program. -/
theorem frame_ki : Cert.frame_KernelIdeal := fun m ρ _ => Cert.KernelIdeal.Gen.frame m ρ

/-- The reference terminates, faults nowhere and keeps its arguments: its run with the result dropped. -/
theorem frame_ri : Cert.frame_ReferenceIdeal := fun m ρ _ =>
  (θ_run Cert.ReferenceIdeal.defs _ _).mono (fun _ h c => (h c).2) (ref_run m ρ)

/-- The idealization rewrote no operation. -/
theorem preserves : Cert.preserves_Kernel_KernelIdeal := trivial

/-- At the ideal values, from memories that agree on the arguments, both programs end with the result `moe` of the
    arguments and the arguments unchanged. -/
theorem algebraic : Cert.algebraic_KernelIdeal_ReferenceIdeal := by
  intro m ρ m' ρ' _ hagree
  refine ⟨fun c => Cert.Moe.moe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Region.run m ρ, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
